-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S128x64 .f32) (main_arg10 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x64 .f32) (main_arg6 : FVec F S128x64 .f32) (main_arg7 : FVec F S64 .f32) (main_arg8 : FVec F S128x64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) (main_arg8 : FVec F S128x64 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 96
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S1x64, .f32⟩
  | .hbm, ⟨68, _⟩ => ⟨S50000x64, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S_, .f32⟩
  | .hbm, ⟨83, _⟩ => ⟨S800000, .f32⟩
  | .hbm, ⟨84, _⟩ => ⟨S_, .f32⟩
  | .hbm, ⟨85, _⟩ => ⟨S50000, .f32⟩
  | .hbm, ⟨86, _⟩ => ⟨S800000x1, .i32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S1x64, .f32⟩
  | .hbm, ⟨95, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_15 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S_, .f32⟩
  | .hbm, ⟨94, _⟩ => ⟨S800000, .f32⟩
  | .hbm, ⟨95, _⟩ => ⟨S_, .f32⟩
  | .hbm, ⟨96, _⟩ => ⟨S50000, .f32⟩
  | .hbm, ⟨97, _⟩ => ⟨S800000x1, .i32⟩
  | .hbm, ⟨98, _⟩ => ⟨S50000, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x64, .f32⟩
  | .hbm, ⟨106, _⟩ => ⟨S1x64, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel program's run with its results named.

  The program is six segments: three stretches of host operations, each followed by one launch of the dense half of a SAGE
  convolution over 25 blocks of 2000 rows. The generated frame folds the buffers' contents through the segments: after the
  last one every buffer of the device that outlives a launch holds the fold's last stage. The generated frame theorem
  keeps only the eleven argument arrays from that; here the same launch is run with the whole final valuation kept, so that
  the two result arrays can be read off it.
-/
import proofs.«118410_j38929583571365_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, and in the final memory every buffer that
    outlives a launch holds the last stage of the fold of the contents through the six segments. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run with the two result arrays and the eleven argument arrays read off the final valuation: each result at
    the fold's last stage, each argument as launched. -/
theorem run_results : θ_run defs (onTc (τ := τ) (main (F := F))) ⟨m, fun _ => 0, ρ⟩ (fun r => ∀ c : Dev nD,
      r.2.mem ((c.tc : Thread nD τ).loc main_v45) = W6 m ρ c (Proc.devRef .tc main_v45)
      ∧ r.2.mem ((c.tc : Thread nD τ).loc main_v66) = W6 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v45 (by decide)),
       h c _ (mem_uc main_v66 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)
    (run_fold m ρ)

end Cert.KernelIdeal.Run

end
-- ==== Proof.Spec.lean ====
/-
  One entry of a SAGE convolution's dense half, as the mathematics has it.

  For a block of rows `a` (the neighbourhood means) and `x` (the nodes' own features), both with 128 columns, two weight
  matrices `wl`, `wr` with 128 rows and `D` columns, and a bias row `b`, the entry at row `p` and column `q` is
      (Σₖ a[p,k]·wl[k,q]  +  Σₖ x[p,k]·wr[k,q])  +  b[0,q]
  on the extended reals. The kernel adds the bias last; the reference adds it between the two products. Addition on the
  extended reals is commutative and associative (with the convention ⊥ + ⊤ = ⊥ it is still a commutative monoid), so the two
  groupings are one number: `add_right_comm`. No finiteness of the inputs is needed.
-/
import Idealize.ShloMosaic.PureOps.Ideal
import Idealize.ShloMosaic.Lib.ValueIdx

noncomputable section

open scoped BigOperators

namespace Cert.Sage

open Idealize.ShloMosaic Idealize.ShloMosaic.ValueIdx

/-- Row `p` of `a` against column `q` of `w`: the sum over the 128 shared coordinates of the products. -/
def rowCol {R D : Nat} (a : (⟨2, ![R, 128]⟩ : Shape).Idx → EReal) (w : (⟨2, ![128, D]⟩ : Shape).Idx → EReal)
    (p : Fin R) (q : Fin D) : EReal :=
  ∑ k : Fin 128, a (ix2 p k) * w (ix2 k q)

/-- The dense half of a SAGE convolution at one entry, the bias added last (the kernel's grouping). -/
def entry {R D : Nat} (a x : (⟨2, ![R, 128]⟩ : Shape).Idx → EReal) (wl wr : (⟨2, ![128, D]⟩ : Shape).Idx → EReal)
    (b : (⟨2, ![1, D]⟩ : Shape).Idx → EReal) (p : Fin R) (q : Fin D) : EReal :=
  (rowCol a wl p q + rowCol x wr p q) + b (ix2 0 q)

/-- The same entry with the bias added between the two products (the reference's grouping). -/
theorem entry_eq_mid {R D : Nat} (a x : (⟨2, ![R, 128]⟩ : Shape).Idx → EReal) (wl wr : (⟨2, ![128, D]⟩ : Shape).Idx → EReal)
    (b : (⟨2, ![1, D]⟩ : Shape).Idx → EReal) (p : Fin R) (q : Fin D) :
    entry a x wl wr b p q = (rowCol a wl p q + b (ix2 0 q)) + rowCol x wr p q := by
  unfold entry
  exact add_right_comm _ _ _

/-- An entry depends only on row `p` of the two left matrices, column `q` of the two weight matrices and column `q` of the
    bias row: blocks that agree there with whole arrays (at row `r`, column `s`) give the arrays' entry. -/
theorem entry_congr {R R' D D' : Nat} (a x : (⟨2, ![R, 128]⟩ : Shape).Idx → EReal) (wl wr : (⟨2, ![128, D]⟩ : Shape).Idx → EReal)
    (b : (⟨2, ![1, D]⟩ : Shape).Idx → EReal) (A X : (⟨2, ![R', 128]⟩ : Shape).Idx → EReal)
    (WL WR : (⟨2, ![128, D']⟩ : Shape).Idx → EReal) (B : (⟨2, ![1, D']⟩ : Shape).Idx → EReal)
    (p : Fin R) (r : Fin R') (q : Fin D) (s : Fin D')
    (ha : ∀ k : Fin 128, a (ix2 p k) = A (ix2 r k)) (hx : ∀ k : Fin 128, x (ix2 p k) = X (ix2 r k))
    (hwl : ∀ k : Fin 128, wl (ix2 k q) = WL (ix2 k s)) (hwr : ∀ k : Fin 128, wr (ix2 k q) = WR (ix2 k s))
    (hb : b (ix2 0 q) = B (ix2 0 s)) :
    entry a x wl wr b p q = entry A X WL WR B r s := by
  unfold entry rowCol
  rw [hb]
  refine congrArg₂ (· + ·) (congrArg₂ (· + ·) ?_ ?_) rfl
  · exact Finset.sum_congr rfl fun k _ => by rw [ha k, hwl k]
  · exact Finset.sum_congr rfl fun k _ => by rw [hx k, hwr k]

/-- A whole array of such entries, one per row and column. -/
def layer {R D : Nat} (a x : (⟨2, ![R, 128]⟩ : Shape).Idx → EReal) (wl wr : (⟨2, ![128, D]⟩ : Shape).Idx → EReal)
    (b : (⟨2, ![1, D]⟩ : Shape).Idx → EReal) : (⟨2, ![R, D]⟩ : Shape).Idx → EReal :=
  fun i => entry a x wl wr b (i 0) (i 1)

/-- The same with the rectifier `max · 0` on every entry (the first layer). -/
def layerRelu {R D : Nat} (a x : (⟨2, ![R, 128]⟩ : Shape).Idx → EReal) (wl wr : (⟨2, ![128, D]⟩ : Shape).Idx → EReal)
    (b : (⟨2, ![1, D]⟩ : Shape).Idx → EReal) : (⟨2, ![R, D]⟩ : Shape).Idx → EReal :=
  fun i => max (entry a x wl wr b (i 0) (i 1)) 0

end Cert.Sage

end
-- ==== Proof.KernelBody.lean ====
/-
  What each kernel body stores, read at one entry.

  Every one of the three bodies loads a block of 2000 rows of the neighbourhood means `a`, the same rows of the nodes'
  own features `x`, both weight matrices whole and the bias row; rounds the four matrices to bf16 (the identity on the
  extended reals); multiplies `a·wl` and `x·wr` on the matrix unit into zero accumulators; adds the two products, then
  the bias row broadcast down the rows; the first body also takes `max · 0`. At an entry (p, q) a matrix-unit product
  into a zero accumulator is the plain sum Σₖ l[p,k]·r[k,q], so the stored value is `Cert.Sage.entry` of the loaded
  blocks (rectified in the first body).
-/
import proofs.«118410_j38929583571365_1_alg».proof.Proof.Gen.KernelIdeal.Skeleton
import proofs.«118410_j38929583571365_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The two matrix-unit products at an entry -/

abbrev dotA := dot_S2000x128_S128x128_S2000x128_1_0_0_1_n_n
abbrev dotB := dot_S2000x128_S128x64_S2000x64_1_0_0_1_n_n

theorem dotA_lhs0 (i : S2000x128.Idx) (c : dotA.contr.Idx) : (dotA.lhsIdx i c 0).val = (i 0).val := by
  unfold DotDims.lhsIdx
  rw [dif_neg (show ¬(0 : Fin S2000x128.rank) ∈ dotA.lhsBatch by decide), dif_pos (show (0 : Fin S2000x128.rank) ∈ dotA.lhsNonContracting by decide)]
  rfl
theorem dotA_lhs1 (i : S2000x128.Idx) (c : dotA.contr.Idx) : (dotA.lhsIdx i c 1).val = (c ⟨0, by decide⟩).val :=
  dotA.lhsIdx_val_of_single rfl i c
theorem dotA_rhs0 (i : S2000x128.Idx) (c : dotA.contr.Idx) : (dotA.rhsIdx i c 0).val = (c ⟨0, by decide⟩).val :=
  dotA.rhsIdx_val_of_single rfl i c
theorem dotA_rhs1 (i : S2000x128.Idx) (c : dotA.contr.Idx) : (dotA.rhsIdx i c 1).val = (i 1).val := by
  unfold DotDims.rhsIdx
  rw [dif_neg (show ¬(1 : Fin S128x128.rank) ∈ dotA.rhsBatch by decide), dif_pos (show (1 : Fin S128x128.rank) ∈ dotA.rhsNonContracting by decide)]
  rfl

/-- A product of a 2000×128 block with a 128×128 matrix into the zero accumulator, at entry (p, q): row p against column q. -/
theorem matmulA_apply (l : FVec Ideal S2000x128 .bf16) (r : FVec Ideal S128x128 .bf16) (p : Fin 2000) (q : Fin 128) :
    FloatOps.matmul dotA none l r (constant S2000x128 .f32 0x00000000#32) (ix2 p q) = Cert.Sage.rowCol l r p q := by
  rw [Ideal.matmul_constant_zero_apply, ← Equiv.sum_comp (contrEquiv1 dotA 128 rfl rfl).symm]
  unfold Cert.Sage.rowCol
  refine Finset.sum_congr rfl fun k _ => ?_
  have hk := contrEquiv1_symm_val dotA 128 rfl rfl k
  have el : dotA.lhsIdx (ix2 p q) ((contrEquiv1 dotA 128 rfl rfl).symm k) = ix2 p k := funext fun a => Fin.ext (by
    match a with
    | ⟨0, _⟩ => exact dotA_lhs0 _ _
    | ⟨1, _⟩ => exact (dotA_lhs1 _ _).trans hk)
  have er : dotA.rhsIdx (ix2 p q) ((contrEquiv1 dotA 128 rfl rfl).symm k) = ix2 k q := funext fun a => Fin.ext (by
    match a with
    | ⟨0, _⟩ => exact (dotA_rhs0 _ _).trans hk
    | ⟨1, _⟩ => exact dotA_rhs1 _ _)
  rw [el, er]

theorem dotB_lhs0 (i : S2000x64.Idx) (c : dotB.contr.Idx) : (dotB.lhsIdx i c 0).val = (i 0).val := by
  unfold DotDims.lhsIdx
  rw [dif_neg (show ¬(0 : Fin S2000x128.rank) ∈ dotB.lhsBatch by decide), dif_pos (show (0 : Fin S2000x128.rank) ∈ dotB.lhsNonContracting by decide)]
  rfl
theorem dotB_lhs1 (i : S2000x64.Idx) (c : dotB.contr.Idx) : (dotB.lhsIdx i c 1).val = (c ⟨0, by decide⟩).val :=
  dotB.lhsIdx_val_of_single rfl i c
theorem dotB_rhs0 (i : S2000x64.Idx) (c : dotB.contr.Idx) : (dotB.rhsIdx i c 0).val = (c ⟨0, by decide⟩).val :=
  dotB.rhsIdx_val_of_single rfl i c
theorem dotB_rhs1 (i : S2000x64.Idx) (c : dotB.contr.Idx) : (dotB.rhsIdx i c 1).val = (i 1).val := by
  unfold DotDims.rhsIdx
  rw [dif_neg (show ¬(1 : Fin S128x64.rank) ∈ dotB.rhsBatch by decide), dif_pos (show (1 : Fin S128x64.rank) ∈ dotB.rhsNonContracting by decide)]
  rfl

/-- A product of a 2000×128 block with a 128×64 matrix into the zero accumulator, at entry (p, q): row p against column q. -/
theorem matmulB_apply (l : FVec Ideal S2000x128 .bf16) (r : FVec Ideal S128x64 .bf16) (p : Fin 2000) (q : Fin 64) :
    FloatOps.matmul dotB none l r (constant S2000x64 .f32 0x00000000#32) (ix2 p q) = Cert.Sage.rowCol l r p q := by
  rw [Ideal.matmul_constant_zero_apply, ← Equiv.sum_comp (contrEquiv1 dotB 128 rfl rfl).symm]
  unfold Cert.Sage.rowCol
  refine Finset.sum_congr rfl fun k _ => ?_
  have hk := contrEquiv1_symm_val dotB 128 rfl rfl k
  have el : dotB.lhsIdx (ix2 p q) ((contrEquiv1 dotB 128 rfl rfl).symm k) = ix2 p k := funext fun a => Fin.ext (by
    match a with
    | ⟨0, _⟩ => exact dotB_lhs0 _ _
    | ⟨1, _⟩ => exact (dotB_lhs1 _ _).trans hk)
  have er : dotB.rhsIdx (ix2 p q) ((contrEquiv1 dotB 128 rfl rfl).symm k) = ix2 k q := funext fun a => Fin.ext (by
    match a with
    | ⟨0, _⟩ => exact (dotB_rhs0 _ _).trans hk
    | ⟨1, _⟩ => exact dotB_rhs1 _ _)
  rw [el, er]

/-! ## The bias row broadcast down the rows, at an entry -/

/-- The 1×128 bias row broadcast to 2000 rows reads the row's column q at every row. -/
theorem biasA_apply (b : FVec Ideal S1x128 .f32) (p : Fin 2000) (q : Fin 128) :
    broadcastTo S2000x128 b broadcasts_S1x128_S2000x128 (ix2 p q) = b (ix2 (0 : Fin 1) q) :=
  broadcastTo_1b_ab_apply b broadcasts_S1x128_S2000x128 p q

/-- The 1×64 bias row broadcast to 2000 rows reads the row's column q at every row. -/
theorem biasB_apply (b : FVec Ideal S1x64 .f32) (p : Fin 2000) (q : Fin 64) :
    broadcastTo S2000x64 b broadcasts_S1x64_S2000x64 (ix2 p q) = b (ix2 (0 : Fin 1) q) :=
  broadcastTo_1b_ab_apply b broadcasts_S1x64_S2000x64 p q

/-! ## The three stored values -/

/-- The first body's stored value at (p, q): the rectified SAGE entry of the loaded blocks. -/
theorem pay0_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q) = max (Cert.Sage.entry x0 x1 x2 x3 x4 p q) 0 := by
  unfold k0_pay1 Cert.Sage.entry
  simp only [shapeCast_self]
  show max ((FloatOps.matmul (F := Ideal) dotA none _ _ _ (ix2 p q) + FloatOps.matmul (F := Ideal) dotA none _ _ _ (ix2 p q)) + broadcastTo S2000x128 x4 broadcasts_S1x128_S2000x128 (ix2 p q)) (Ideal.ofBits .f32 0x00000000#32) = _
  rw [Ideal.ofBits_zero_f32]
  refine congrArg (max · 0) ?_
  refine congrArg₂ (· + ·) (congrArg₂ (· + ·) ?_ ?_) (biasA_apply x4 p q)
  · exact matmulA_apply _ _ p q
  · exact matmulA_apply _ _ p q

/-- The second body's stored value at (p, q): the SAGE entry of the loaded blocks. -/
theorem pay1_apply (x0 x1 : Vec Ideal S2000x128 .f32) (x2 x3 : Vec Ideal S128x64 .f32) (x4 : Vec Ideal S1x64 .f32)
    (p : Fin 2000) (q : Fin 64) :
    k1_pay1 (F := Ideal) x0 x1 x2 x3 x4 (ix2 p q) = Cert.Sage.entry x0 x1 x2 x3 x4 p q := by
  unfold k1_pay1 Cert.Sage.entry
  simp only [shapeCast_self]
  show (FloatOps.matmul (F := Ideal) dotB none _ _ _ (ix2 p q) + FloatOps.matmul (F := Ideal) dotB none _ _ _ (ix2 p q)) + broadcastTo S2000x64 x4 broadcasts_S1x64_S2000x64 (ix2 p q) = _
  refine congrArg₂ (· + ·) (congrArg₂ (· + ·) ?_ ?_) (biasB_apply x4 p q)
  · exact matmulB_apply _ _ p q
  · exact matmulB_apply _ _ p q

/-- The third body's stored value at (p, q): the SAGE entry of the loaded blocks. -/
theorem pay2_apply (x0 x1 : Vec Ideal S2000x128 .f32) (x2 x3 : Vec Ideal S128x64 .f32) (x4 : Vec Ideal S1x64 .f32)
    (p : Fin 2000) (q : Fin 64) :
    k2_pay1 (F := Ideal) x0 x1 x2 x3 x4 (ix2 p q) = Cert.Sage.entry x0 x1 x2 x3 x4 p q := by
  unfold k2_pay1 Cert.Sage.entry
  simp only [shapeCast_self]
  show (FloatOps.matmul (F := Ideal) dotB none _ _ _ (ix2 p q) + FloatOps.matmul (F := Ideal) dotB none _ _ _ (ix2 p q)) + broadcastTo S2000x64 x4 broadcasts_S1x64_S2000x64 (ix2 p q) = _
  refine congrArg₂ (· + ·) (congrArg₂ (· + ·) ?_ ?_) (biasB_apply x4 p q)
  · exact matmulB_apply _ _ p q
  · exact matmulB_apply _ _ p q

end Cert.KernelIdeal.Body

end
-- ==== Proof.KernelRegion0.lean ====
/-
  The first launch's output array, as one function of the arrays the launch finds.

  The launch runs 25 grid points; point `t` reads rows 2000·t … 2000·t+1999 of the neighbourhood means and of the nodes'
  features, both weight matrices and the bias row whole, and writes the same rows of the output. What it writes is the
  body's stored value of those blocks, which at an entry is the rectified SAGE entry (`Body.pay0_apply`). A row block of
  an array read at local row `p` is the array at row 2000·t + p, and the weights' and bias's one block is the whole array,
  so block `t` of the output is block `t` of ONE whole-array function, `Cert.Sage.layerRelu` of the five arrays. The 25
  row blocks tile the 50000 rows (row `r` lies in block `r / 2000`), so after the launch the output array IS that function.
-/
import proofs.«118410_j38929583571365_1_alg».proof.Proof.Gen.KernelIdeal.Frame
import proofs.«118410_j38929583571365_1_alg».proof.Proof.KernelBody

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the two row-blocked inputs and the output sit at row block `t`, column block 0;
    the weights and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the output array ends holding: the rectified SAGE layer of the five arrays the launch finds. -/
abbrev G (c : Dev nD) : S50000x128.Idx → EReal :=
  Cert.Sage.layerRelu (R := 50000) (D := 128) (V c main_v22) (V c main_arg0) (V c main_arg2) (V c main_arg3) (V c main_v23)

/-- What point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero zeros]
  simp only [View.ld_unit_zero (S := S2000x128) zeros, View.ld_unit_zero (S := S128x128) zeros, View.ld_unit_zero (S := S1x128) zeros]
  obtain ⟨e00, e01, e10, e11, e20, e21, e30, e31, e40, e41, e50, e51⟩ := idx_facts t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = G V c (((cfg0.win 5).blk t).view.emb (ix2 p q))
  refine (Body.pay0_apply (iblk0 V c 0 t) (iblk0 V c 1 t) (iblk0 V c 2 t) (iblk0 V c 3 t) (iblk0 V c 4 t) p q).trans ?_
  refine congrArg (max · 0) ?_
  refine Cert.Sage.entry_congr _ _ _ _ _ _ _ _ _ _ p _ q _ (fun k => ?_) (fun k => ?_) (fun k => ?_) (fun k => ?_) ?_
  · show V c main_v22 (((cfg0.win 0).blk t).view.emb (ix2 p k)) = V c main_v22 _
    refine congrArg _ (funext fun a => Fin.ext ?_)
    match a with
    | ⟨0, _⟩ => show win0_0.index t (0 : Fin 2) * 2000 + 1 * p.val = win0_5.index t (0 : Fin 2) * 2000 + 1 * p.val; rw [e00, e50]
    | ⟨1, _⟩ => show win0_0.index t (1 : Fin 2) * 128 + 1 * k.val = k.val; rw [e01]; omega
  · show V c main_arg0 (((cfg0.win 1).blk t).view.emb (ix2 p k)) = V c main_arg0 _
    refine congrArg _ (funext fun a => Fin.ext ?_)
    match a with
    | ⟨0, _⟩ => show win0_1.index t (0 : Fin 2) * 2000 + 1 * p.val = win0_5.index t (0 : Fin 2) * 2000 + 1 * p.val; rw [e10, e50]
    | ⟨1, _⟩ => show win0_1.index t (1 : Fin 2) * 128 + 1 * k.val = k.val; rw [e11]; omega
  · show V c main_arg2 (((cfg0.win 2).blk t).view.emb (ix2 k q)) = V c main_arg2 _
    refine congrArg _ (funext fun a => Fin.ext ?_)
    match a with
    | ⟨0, _⟩ => show win0_2.index t (0 : Fin 2) * 128 + 1 * k.val = k.val; rw [e20]; omega
    | ⟨1, _⟩ => show win0_2.index t (1 : Fin 2) * 128 + 1 * q.val = win0_5.index t (1 : Fin 2) * 128 + 1 * q.val; rw [e21, e51]
  · show V c main_arg3 (((cfg0.win 3).blk t).view.emb (ix2 k q)) = V c main_arg3 _
    refine congrArg _ (funext fun a => Fin.ext ?_)
    match a with
    | ⟨0, _⟩ => show win0_3.index t (0 : Fin 2) * 128 + 1 * k.val = k.val; rw [e30]; omega
    | ⟨1, _⟩ => show win0_3.index t (1 : Fin 2) * 128 + 1 * q.val = win0_5.index t (1 : Fin 2) * 128 + 1 * q.val; rw [e31, e51]
  · show V c main_v23 (((cfg0.win 4).blk t).view.emb (ix2 (0 : Fin 1) q)) = V c main_v23 _
    refine congrArg _ (funext fun a => Fin.ext ?_)
    match a with
    | ⟨0, _⟩ => show win0_4.index t (0 : Fin 2) * 1 + 1 * 0 = 0; rw [e40]
    | ⟨1, _⟩ => show win0_4.index t (1 : Fin 2) * 128 + 1 * q.val = win0_5.index t (1 : Fin 2) * 128 + 1 * q.val; rw [e41, e51]

/-- An index of the output array lies in point `t`'s block iff each coordinate lies in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- Every index of the output array lies in some point's block: row `r` in block `r / 2000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  have ht : (i 0).val / 2000 < cfg0.N := by rw [hN]; omega
  refine ⟨⟨(i 0).val / 2000, ht⟩, flush0_5 _, ?_⟩
  rw [mem_blk]
  obtain ⟨-, -, -, -, -, -, -, -, -, -, e50, e51⟩ := idx_facts ⟨(i 0).val / 2000, ht⟩
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e51]; omega

/-- The output array after the launch is the rectified SAGE layer of the arrays the launch finds. -/
theorem arr (c : Dev nD) : (dat0 V c).arrAt 5 cfg0.N = G V c :=
  (dat0 V c).arrAt_eq_of_cover 5 (G V c) (fun t _ => flushed_eq V c t) cover

end Cert.KernelIdeal.Region0

end
-- ==== Proof.KernelRegion1.lean ====
/-
  The second launch's output array, as one function of the arrays the launch finds.

  As in the first launch, 25 grid points; point `t` reads rows 2000·t … 2000·t+1999 of the neighbourhood means of the
  hidden features and of the hidden features themselves, both 128×64 weight matrices and the 1×64 bias row whole, and
  writes the same rows of the 50000×64 output. What it writes is the body's stored value of those blocks, which at an
  entry is the SAGE entry (`Body.pay1_apply`; no rectifier in this layer). A row block read at local row `p` is the array
  at row 2000·t + p, the weights' and the bias's one block is the whole array, so block `t` of the output is block `t` of
  ONE whole-array function, `Cert.Sage.layer` of the five arrays; the 25 row blocks tile the 50000 rows, so after the
  launch the output array IS that function.
-/
import proofs.«118410_j38929583571365_1_alg».proof.Proof.Gen.KernelIdeal.Frame
import proofs.«118410_j38929583571365_1_alg».proof.Proof.KernelBody

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the two row-blocked inputs and the output sit at row block `t`, column block 0;
    the weights and the bias at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the output array ends holding: the SAGE layer of the five arrays the launch finds. -/
abbrev G (c : Dev nD) : S50000x64.Idx → EReal :=
  Cert.Sage.layer (R := 50000) (D := 64) (V c main_v43) (V c main_v24) (V c main_arg5) (V c main_arg6) (V c main_v44)

/-- What point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero zeros]
  simp only [View.ld_unit_zero (S := S2000x128) zeros, View.ld_unit_zero (S := S128x64) zeros, View.ld_unit_zero (S := S1x64) zeros]
  obtain ⟨e00, e01, e10, e11, e20, e21, e30, e31, e40, e41, e50, e51⟩ := idx_facts t
  funext j
  obtain ⟨p, q, rfl⟩ : ∃ (p : Fin 2000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = G V c (((cfg1.win 5).blk t).view.emb (ix2 p q))
  refine (Body.pay1_apply (iblk1 V c 0 t) (iblk1 V c 1 t) (iblk1 V c 2 t) (iblk1 V c 3 t) (iblk1 V c 4 t) p q).trans ?_
  refine Cert.Sage.entry_congr _ _ _ _ _ _ _ _ _ _ p _ q _ (fun k => ?_) (fun k => ?_) (fun k => ?_) (fun k => ?_) ?_
  · show V c main_v43 (((cfg1.win 0).blk t).view.emb (ix2 p k)) = V c main_v43 _
    refine congrArg _ (funext fun a => Fin.ext ?_)
    match a with
    | ⟨0, _⟩ => show win1_0.index t (0 : Fin 2) * 2000 + 1 * p.val = win1_5.index t (0 : Fin 2) * 2000 + 1 * p.val; rw [e00, e50]
    | ⟨1, _⟩ => show win1_0.index t (1 : Fin 2) * 128 + 1 * k.val = k.val; rw [e01]; omega
  · show V c main_v24 (((cfg1.win 1).blk t).view.emb (ix2 p k)) = V c main_v24 _
    refine congrArg _ (funext fun a => Fin.ext ?_)
    match a with
    | ⟨0, _⟩ => show win1_1.index t (0 : Fin 2) * 2000 + 1 * p.val = win1_5.index t (0 : Fin 2) * 2000 + 1 * p.val; rw [e10, e50]
    | ⟨1, _⟩ => show win1_1.index t (1 : Fin 2) * 128 + 1 * k.val = k.val; rw [e11]; omega
  · show V c main_arg5 (((cfg1.win 2).blk t).view.emb (ix2 k q)) = V c main_arg5 _
    refine congrArg _ (funext fun a => Fin.ext ?_)
    match a with
    | ⟨0, _⟩ => show win1_2.index t (0 : Fin 2) * 128 + 1 * k.val = k.val; rw [e20]; omega
    | ⟨1, _⟩ => show win1_2.index t (1 : Fin 2) * 64 + 1 * q.val = win1_5.index t (1 : Fin 2) * 64 + 1 * q.val; rw [e21, e51]
  · show V c main_arg6 (((cfg1.win 3).blk t).view.emb (ix2 k q)) = V c main_arg6 _
    refine congrArg _ (funext fun a => Fin.ext ?_)
    match a with
    | ⟨0, _⟩ => show win1_3.index t (0 : Fin 2) * 128 + 1 * k.val = k.val; rw [e30]; omega
    | ⟨1, _⟩ => show win1_3.index t (1 : Fin 2) * 64 + 1 * q.val = win1_5.index t (1 : Fin 2) * 64 + 1 * q.val; rw [e31, e51]
  · show V c main_v44 (((cfg1.win 4).blk t).view.emb (ix2 (0 : Fin 1) q)) = V c main_v44 _
    refine congrArg _ (funext fun a => Fin.ext ?_)
    match a with
    | ⟨0, _⟩ => show win1_4.index t (0 : Fin 2) * 1 + 1 * 0 = 0; rw [e40]
    | ⟨1, _⟩ => show win1_4.index t (1 : Fin 2) * 64 + 1 * q.val = win1_5.index t (1 : Fin 2) * 64 + 1 * q.val; rw [e41, e51]

/-- An index of the output array lies in point `t`'s block iff each coordinate lies in the block's range on its axis. -/
theorem mem_blk (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v45).slice (win1_5.rect t)).set ↔ _
  rw [View.set_slice_whole, Rect.mem_set_unit]
  exact Iff.rfl

/-- Every index of the output array lies in some point's block: row `r` in block `r / 2000`. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 25 := N_1
  have ht : (i 0).val / 2000 < cfg1.N := by rw [hN]; omega
  refine ⟨⟨(i 0).val / 2000, ht⟩, flush1_5 _, ?_⟩
  rw [mem_blk]
  obtain ⟨-, -, -, -, -, -, -, -, -, -, e50, e51⟩ := idx_facts ⟨(i 0).val / 2000, ht⟩
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, ht⟩ (1 : Fin 2) * 64 ≤ (i 1).val ∧ (i 1).val < win1_5.index ⟨(i 0).val / 2000, ht⟩ (1 : Fin 2) * 64 + 64
    rw [e51]; omega

/-- The output array after the launch is the SAGE layer of the arrays the launch finds. -/
theorem arr (c : Dev nD) : (dat1 V c).arrAt 5 cfg1.N = G V c :=
  (dat1 V c).arrAt_eq_of_cover 5 (G V c) (fun t _ => flushed_eq V c t) cover

end Cert.KernelIdeal.Region1

end
-- ==== Proof.KernelRegion2.lean ====
/-
  The third launch's output array, as one function of the arrays the launch finds.

  The same shape as the second launch, over the other pair of 128×64 weight matrices and the other 1×64 bias row: 25 grid
  points; point `t` reads rows 2000·t … 2000·t+1999 of the neighbourhood means of the hidden features and of the hidden
  features themselves, the weights and the bias row whole, and writes the same rows of the 50000×64 output. What it
  writes is the body's stored value of those blocks, at an entry the SAGE entry (`Body.pay2_apply`). A row block read at
  local row `p` is the array at row 2000·t + p, the weights' and the bias's one block is the whole array, so block `t` of
  the output is block `t` of ONE whole-array function, `Cert.Sage.layer` of the five arrays; the 25 row blocks tile the
  50000 rows, so after the launch the output array IS that function.
-/
import proofs.«118410_j38929583571365_1_alg».proof.Proof.Gen.KernelIdeal.Frame
import proofs.«118410_j38929583571365_1_alg».proof.Proof.KernelBody

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the two row-blocked inputs and the output sit at row block `t`, column block 0;
    the weights and the bias at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What the output array ends holding: the SAGE layer of the five arrays the launch finds. -/
abbrev G (c : Dev nD) : S50000x64.Idx → EReal :=
  Cert.Sage.layer (R := 50000) (D := 64) (V c main_v64) (V c main_v24) (V c main_arg8) (V c main_arg9) (V c main_v65)

/-- What point `t` writes back is block `t` of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero zeros]
  simp only [View.ld_unit_zero (S := S2000x128) zeros, View.ld_unit_zero (S := S128x64) zeros, View.ld_unit_zero (S := S1x64) zeros]
  obtain ⟨e00, e01, e10, e11, e20, e21, e30, e31, e40, e41, e50, e51⟩ := idx_facts t
  funext j
  obtain ⟨p, q, rfl⟩ : ∃ (p : Fin 2000) (q : Fin 64), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = G V c (((cfg2.win 5).blk t).view.emb (ix2 p q))
  refine (Body.pay2_apply (iblk2 V c 0 t) (iblk2 V c 1 t) (iblk2 V c 2 t) (iblk2 V c 3 t) (iblk2 V c 4 t) p q).trans ?_
  refine Cert.Sage.entry_congr _ _ _ _ _ _ _ _ _ _ p _ q _ (fun k => ?_) (fun k => ?_) (fun k => ?_) (fun k => ?_) ?_
  · show V c main_v64 (((cfg2.win 0).blk t).view.emb (ix2 p k)) = V c main_v64 _
    refine congrArg _ (funext fun a => Fin.ext ?_)
    match a with
    | ⟨0, _⟩ => show win2_0.index t (0 : Fin 2) * 2000 + 1 * p.val = win2_5.index t (0 : Fin 2) * 2000 + 1 * p.val; rw [e00, e50]
    | ⟨1, _⟩ => show win2_0.index t (1 : Fin 2) * 128 + 1 * k.val = k.val; rw [e01]; omega
  · show V c main_v24 (((cfg2.win 1).blk t).view.emb (ix2 p k)) = V c main_v24 _
    refine congrArg _ (funext fun a => Fin.ext ?_)
    match a with
    | ⟨0, _⟩ => show win2_1.index t (0 : Fin 2) * 2000 + 1 * p.val = win2_5.index t (0 : Fin 2) * 2000 + 1 * p.val; rw [e10, e50]
    | ⟨1, _⟩ => show win2_1.index t (1 : Fin 2) * 128 + 1 * k.val = k.val; rw [e11]; omega
  · show V c main_arg8 (((cfg2.win 2).blk t).view.emb (ix2 k q)) = V c main_arg8 _
    refine congrArg _ (funext fun a => Fin.ext ?_)
    match a with
    | ⟨0, _⟩ => show win2_2.index t (0 : Fin 2) * 128 + 1 * k.val = k.val; rw [e20]; omega
    | ⟨1, _⟩ => show win2_2.index t (1 : Fin 2) * 64 + 1 * q.val = win2_5.index t (1 : Fin 2) * 64 + 1 * q.val; rw [e21, e51]
  · show V c main_arg9 (((cfg2.win 3).blk t).view.emb (ix2 k q)) = V c main_arg9 _
    refine congrArg _ (funext fun a => Fin.ext ?_)
    match a with
    | ⟨0, _⟩ => show win2_3.index t (0 : Fin 2) * 128 + 1 * k.val = k.val; rw [e30]; omega
    | ⟨1, _⟩ => show win2_3.index t (1 : Fin 2) * 64 + 1 * q.val = win2_5.index t (1 : Fin 2) * 64 + 1 * q.val; rw [e31, e51]
  · show V c main_v65 (((cfg2.win 4).blk t).view.emb (ix2 (0 : Fin 1) q)) = V c main_v65 _
    refine congrArg _ (funext fun a => Fin.ext ?_)
    match a with
    | ⟨0, _⟩ => show win2_4.index t (0 : Fin 2) * 1 + 1 * 0 = 0; rw [e40]
    | ⟨1, _⟩ => show win2_4.index t (1 : Fin 2) * 64 + 1 * q.val = win2_5.index t (1 : Fin 2) * 64 + 1 * q.val; rw [e41, e51]

/-- An index of the output array lies in point `t`'s block iff each coordinate lies in the block's range on its axis. -/
theorem mem_blk (t : Fin cfg2.N) (i : S50000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v66).slice (win2_5.rect t)).set ↔ _
  rw [View.set_slice_whole, Rect.mem_set_unit]
  exact Iff.rfl

/-- Every index of the output array lies in some point's block: row `r` in block `r / 2000`. -/
theorem cover (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 25 := N_2
  have ht : (i 0).val / 2000 < cfg2.N := by rw [hN]; omega
  refine ⟨⟨(i 0).val / 2000, ht⟩, flush2_5 _, ?_⟩
  rw [mem_blk]
  obtain ⟨-, -, -, -, -, -, -, -, -, -, e50, e51⟩ := idx_facts ⟨(i 0).val / 2000, ht⟩
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win2_5.index ⟨(i 0).val / 2000, ht⟩ (1 : Fin 2) * 64 ≤ (i 1).val ∧ (i 1).val < win2_5.index ⟨(i 0).val / 2000, ht⟩ (1 : Fin 2) * 64 + 64
    rw [e51]; omega

/-- The output array after the launch is the SAGE layer of the arrays the launch finds. -/
theorem arr (c : Dev nD) : (dat2 V c).arrAt 5 cfg2.N = G V c :=
  (dat2 V c).arrAt_eq_of_cover 5 (G V c) (fun t _ => flushed_eq V c t) cover

end Cert.KernelIdeal.Region2

end
-- ==== Proof.Aggregate.lean ====
/-
  The sparse half of a SAGE convolution, named once.

  Both programs compute it with the same host operations: row 0 of the edge list gives each edge's source node, row 1 its
  destination; a negative source id is wrapped by adding 50000 (array indexing's convention); the features of the sources
  are gathered, summed into their destinations' rows, and each row is divided by the number of edges arriving there, or
  by 1 where none arrives. Nothing in the equivalence depends on what a gather or a scatter-add computes: the kernel
  program and the reference apply this one function to equal arguments, so it is carried as one name and never opened.
  Also named here: a bias vector laid out as a one-row matrix, as the launches read it.
-/
import proofs.«118410_j38929583571365_1_alg».proof.Proof.Gen.KernelIdeal
import Idealize.ShloMosaic.PureOps.Ideal

noncomputable section

namespace Cert.KernelIdeal.Agg

open Cert.KernelIdeal Cert.KernelIdeal.Facts₀ Cert.KernelIdeal.Facts Idealize.ShloMosaic

/-- Row 0 of the 2×800000 edge list: each edge's source node. -/
def sources (ei : (⟨S2x800000, .i32⟩ : BufTy).Contents (Elt Ideal)) : (⟨S800000, .i32⟩ : BufTy).Contents (Elt Ideal) :=
  fun i => shapeCast S800000 (extractStridedSlice S1x800000 ![0, 0] ei slices_S2x800000_S1x800000_0_0) shapeCasts_S1x800000_S800000 i

/-- Row 1 of the edge list: each edge's destination node. -/
def dests (ei : (⟨S2x800000, .i32⟩ : BufTy).Contents (Elt Ideal)) : (⟨S800000, .i32⟩ : BufTy).Contents (Elt Ideal) :=
  fun i => shapeCast S800000 (extractStridedSlice S1x800000 ![1, 0] ei slices_S2x800000_S1x800000_1_0) shapeCasts_S1x800000_S800000 i

/-- The mean of the features `z` over each node's incoming edges (sources `s`, destinations `d`): the gathered source
    rows summed per destination, over the per-destination edge count raised to at least 1. -/
def neighbourMean (s d : (⟨S800000, .i32⟩ : BufTy).Contents (Elt Ideal)) (z : (⟨S50000x128, .f32⟩ : BufTy).Contents (Elt Ideal)) :
    (⟨S50000x128, .f32⟩ : BufTy).Contents (Elt Ideal) :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 z
        (broadcastInDim S800000x1 ![0] bcast_S800000_S800000x1_0
          (select
            (cmpi .slt s (broadcastInDim S800000 ![] bcast_S_S800000 (constantI S_ 32 0#32)))
            (addi s (broadcastInDim S800000 ![] bcast_S_S800000 (constantI S_ 32 50000#32)))
            s))))
    (broadcastInDim S50000x128 ![0, 1] bcast_S50000x1_S50000x128_0_1
      (broadcastInDim S50000x1 ![0] bcast_S50000_S50000x1_0
        (maximumf
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 d)
            (broadcastInDim S800000 ![] bcast_S_S800000 (constant (F := Ideal) S_ .f32 0x3F800000#32)))
          (broadcastInDim S50000 ![] bcast_S_S50000 (constant (F := Ideal) S_ .f32 0x3F800000#32)))))

/-- A 128-vector laid out as a 1×128 matrix. -/
def row128 (b : (⟨S128, .f32⟩ : BufTy).Contents (Elt Ideal)) : (⟨S1x128, .f32⟩ : BufTy).Contents (Elt Ideal) :=
  fun i => shapeCast S1x128 b shapeCasts_S128_S1x128 i

/-- A 64-vector laid out as a 1×64 matrix. -/
def row64 (b : (⟨S64, .f32⟩ : BufTy).Contents (Elt Ideal)) : (⟨S1x64, .f32⟩ : BufTy).Contents (Elt Ideal) :=
  fun i => shapeCast S1x64 b shapeCasts_S64_S1x64 i

end Cert.KernelIdeal.Agg

end
-- ==== Proof.HostStretch0.lean ====
/-
  What the host operations before the first launch leave, from any contents `W` of the device's buffers.

  The thirty operations read the edge list and the node features and write: the edges' sources and destinations (kept for
  the two later stretches), the neighbourhood means of the features, and the first bias vector as a one-row matrix. They
  write no argument array, so every argument is still what `W` had.
-/
import proofs.«118410_j38929583571365_1_alg».proof.Proof.Gen.KernelIdeal.Launch
import proofs.«118410_j38929583571365_1_alg».proof.Proof.Aggregate
import Idealize.ShloMosaic.Lib.StableHlo.Run

set_option maxRecDepth 16384

noncomputable section

namespace Cert.KernelIdeal.Host0

open Cert.KernelIdeal Cert.KernelIdeal.Gen
open Idealize.ShloMosaic Idealize.ShloMosaic.TcCoe Idealize.ShloMosaic.StableHlo

variable (W : Valuation τ sig (Elt Ideal))

/-- The edges' sources, as the later stretches find them. -/
theorem sources : StableHlo.after hostOps0 W (Proc.devRef .tc main_v1) = Agg.sources (W (Proc.devRef .tc main_arg1)) := by
  after_results_simp
  rfl

/-- The edges' destinations, as the later stretches find them. -/
theorem dests : StableHlo.after hostOps0 W (Proc.devRef .tc main_v3) = Agg.dests (W (Proc.devRef .tc main_arg1)) := by
  after_results_simp
  rfl

/-- The first launch's first operand: the neighbourhood means of the node features. -/
theorem means : StableHlo.after hostOps0 W (Proc.devRef .tc main_v22)
    = Agg.neighbourMean (Agg.sources (W (Proc.devRef .tc main_arg1))) (Agg.dests (W (Proc.devRef .tc main_arg1))) (W (Proc.devRef .tc main_arg0)) := by
  after_results_simp
  rfl

/-- The first launch's last operand: the first bias vector as a one-row matrix. -/
theorem bias : StableHlo.after hostOps0 W (Proc.devRef .tc main_v23) = Agg.row128 (W (Proc.devRef .tc main_arg4)) := by
  after_results_simp
  rfl

theorem keeps_arg0 : StableHlo.after hostOps0 W (Proc.devRef .tc main_arg0) = W (Proc.devRef .tc main_arg0) := by after_results_simp
theorem keeps_arg2 : StableHlo.after hostOps0 W (Proc.devRef .tc main_arg2) = W (Proc.devRef .tc main_arg2) := by after_results_simp
theorem keeps_arg3 : StableHlo.after hostOps0 W (Proc.devRef .tc main_arg3) = W (Proc.devRef .tc main_arg3) := by after_results_simp
theorem keeps_arg5 : StableHlo.after hostOps0 W (Proc.devRef .tc main_arg5) = W (Proc.devRef .tc main_arg5) := by after_results_simp
theorem keeps_arg6 : StableHlo.after hostOps0 W (Proc.devRef .tc main_arg6) = W (Proc.devRef .tc main_arg6) := by after_results_simp
theorem keeps_arg7 : StableHlo.after hostOps0 W (Proc.devRef .tc main_arg7) = W (Proc.devRef .tc main_arg7) := by after_results_simp
theorem keeps_arg8 : StableHlo.after hostOps0 W (Proc.devRef .tc main_arg8) = W (Proc.devRef .tc main_arg8) := by after_results_simp
theorem keeps_arg9 : StableHlo.after hostOps0 W (Proc.devRef .tc main_arg9) = W (Proc.devRef .tc main_arg9) := by after_results_simp
theorem keeps_arg10 : StableHlo.after hostOps0 W (Proc.devRef .tc main_arg10) = W (Proc.devRef .tc main_arg10) := by after_results_simp

end Cert.KernelIdeal.Host0

end
-- ==== Proof.HostStretch1.lean ====
/-
  What the host operations between the first and the second launch leave, from any contents `W` of the device's buffers.

  They read the edges' sources and destinations (written before the first launch) and the first launch's output, the
  hidden features, and write the neighbourhood means of the hidden features and the second bias vector as a one-row
  matrix. They write nothing that a later segment reads from before them: the hidden features, the edges' two rows and
  the remaining arguments are still what `W` had.
-/
import proofs.«118410_j38929583571365_1_alg».proof.Proof.Gen.KernelIdeal.Launch
import proofs.«118410_j38929583571365_1_alg».proof.Proof.Aggregate
import Idealize.ShloMosaic.Lib.StableHlo.Run

set_option maxRecDepth 16384

noncomputable section

namespace Cert.KernelIdeal.Host1

open Cert.KernelIdeal Cert.KernelIdeal.Gen
open Idealize.ShloMosaic Idealize.ShloMosaic.TcCoe Idealize.ShloMosaic.StableHlo

variable (W : Valuation τ sig (Elt Ideal))

/-- The second launch's first operand: the neighbourhood means of the hidden features. -/
theorem means : StableHlo.after hostOps1 W (Proc.devRef .tc main_v43)
    = Agg.neighbourMean (W (Proc.devRef .tc main_v1)) (W (Proc.devRef .tc main_v3)) (W (Proc.devRef .tc main_v24)) := by
  after_results_simp
  rfl

/-- The second launch's last operand: the second bias vector as a one-row matrix. -/
theorem bias : StableHlo.after hostOps1 W (Proc.devRef .tc main_v44) = Agg.row64 (W (Proc.devRef .tc main_arg7)) := by
  after_results_simp
  rfl

theorem keeps_hidden : StableHlo.after hostOps1 W (Proc.devRef .tc main_v24) = W (Proc.devRef .tc main_v24) := by after_results_simp
theorem keeps_sources : StableHlo.after hostOps1 W (Proc.devRef .tc main_v1) = W (Proc.devRef .tc main_v1) := by after_results_simp
theorem keeps_dests : StableHlo.after hostOps1 W (Proc.devRef .tc main_v3) = W (Proc.devRef .tc main_v3) := by after_results_simp
theorem keeps_arg5 : StableHlo.after hostOps1 W (Proc.devRef .tc main_arg5) = W (Proc.devRef .tc main_arg5) := by after_results_simp
theorem keeps_arg6 : StableHlo.after hostOps1 W (Proc.devRef .tc main_arg6) = W (Proc.devRef .tc main_arg6) := by after_results_simp
theorem keeps_arg8 : StableHlo.after hostOps1 W (Proc.devRef .tc main_arg8) = W (Proc.devRef .tc main_arg8) := by after_results_simp
theorem keeps_arg9 : StableHlo.after hostOps1 W (Proc.devRef .tc main_arg9) = W (Proc.devRef .tc main_arg9) := by after_results_simp
theorem keeps_arg10 : StableHlo.after hostOps1 W (Proc.devRef .tc main_arg10) = W (Proc.devRef .tc main_arg10) := by after_results_simp

end Cert.KernelIdeal.Host1

end
-- ==== Proof.HostStretch2.lean ====
/-
  What the host operations between the second and the third launch leave, from any contents `W` of the device's buffers.

  They read the edges' sources and destinations and the hidden features once more, and write the neighbourhood means of
  the hidden features (again: the program computes them a second time) and the third bias vector as a one-row matrix.
  They leave the hidden features, the second launch's output and the remaining arguments as `W` had them.
-/
import proofs.«118410_j38929583571365_1_alg».proof.Proof.Gen.KernelIdeal.Launch
import proofs.«118410_j38929583571365_1_alg».proof.Proof.Aggregate
import Idealize.ShloMosaic.Lib.StableHlo.Run

set_option maxRecDepth 16384

noncomputable section

namespace Cert.KernelIdeal.Host2

open Cert.KernelIdeal Cert.KernelIdeal.Gen
open Idealize.ShloMosaic Idealize.ShloMosaic.TcCoe Idealize.ShloMosaic.StableHlo

variable (W : Valuation τ sig (Elt Ideal))

/-- The third launch's first operand: the neighbourhood means of the hidden features. -/
theorem means : StableHlo.after hostOps2 W (Proc.devRef .tc main_v64)
    = Agg.neighbourMean (W (Proc.devRef .tc main_v1)) (W (Proc.devRef .tc main_v3)) (W (Proc.devRef .tc main_v24)) := by
  after_results_simp
  rfl

/-- The third launch's last operand: the third bias vector as a one-row matrix. -/
theorem bias : StableHlo.after hostOps2 W (Proc.devRef .tc main_v65) = Agg.row64 (W (Proc.devRef .tc main_arg10)) := by
  after_results_simp
  rfl

theorem keeps_hidden : StableHlo.after hostOps2 W (Proc.devRef .tc main_v24) = W (Proc.devRef .tc main_v24) := by after_results_simp
theorem keeps_first_result : StableHlo.after hostOps2 W (Proc.devRef .tc main_v45) = W (Proc.devRef .tc main_v45) := by after_results_simp
theorem keeps_arg8 : StableHlo.after hostOps2 W (Proc.devRef .tc main_arg8) = W (Proc.devRef .tc main_arg8) := by after_results_simp
theorem keeps_arg9 : StableHlo.after hostOps2 W (Proc.devRef .tc main_arg9) = W (Proc.devRef .tc main_arg9) := by after_results_simp

end Cert.KernelIdeal.Host2

end
-- ==== Proof.Model.lean ====
/-
  The two-layer network both programs compute, as functions of the argument arrays.

  `hidden`: the first SAGE layer with the rectifier — the dense half (`Cert.Sage.layerRelu`) of the neighbourhood means of
  the node features, the node features themselves, the first pair of weight matrices and the first bias.
  `head`: a second-layer SAGE convolution without rectifier over hidden features `h` — the dense half (`Cert.Sage.layer`)
  of the neighbourhood means of `h`, `h` itself, a pair of 128×64 weight matrices and a 64-vector bias. The program's two
  results are `head` of the same hidden features with two different sets of weights.
-/
import proofs.«118410_j38929583571365_1_alg».proof.Proof.Aggregate
import proofs.«118410_j38929583571365_1_alg».proof.Proof.Spec

noncomputable section

namespace Cert.KernelIdeal.Model

open Cert.KernelIdeal Idealize.ShloMosaic

/-- The hidden features: the rectified first layer. -/
def hidden (x : (⟨S50000x128, .f32⟩ : BufTy).Contents (Elt Ideal)) (ei : (⟨S2x800000, .i32⟩ : BufTy).Contents (Elt Ideal))
    (wl wr : (⟨S128x128, .f32⟩ : BufTy).Contents (Elt Ideal)) (b : (⟨S128, .f32⟩ : BufTy).Contents (Elt Ideal)) :
    (⟨S50000x128, .f32⟩ : BufTy).Contents (Elt Ideal) :=
  Cert.Sage.layerRelu (R := 50000) (D := 128) (Agg.neighbourMean (Agg.sources ei) (Agg.dests ei) x) x wl wr (Agg.row128 b)

/-- One output head: the second layer over hidden features `h`. -/
def head (h : (⟨S50000x128, .f32⟩ : BufTy).Contents (Elt Ideal)) (ei : (⟨S2x800000, .i32⟩ : BufTy).Contents (Elt Ideal))
    (wl wr : (⟨S128x64, .f32⟩ : BufTy).Contents (Elt Ideal)) (b : (⟨S64, .f32⟩ : BufTy).Contents (Elt Ideal)) :
    (⟨S50000x64, .f32⟩ : BufTy).Contents (Elt Ideal) :=
  Cert.Sage.layer (R := 50000) (D := 64) (Agg.neighbourMean (Agg.sources ei) (Agg.dests ei) h) h wl wr (Agg.row64 b)

end Cert.KernelIdeal.Model

end
-- ==== Proof.KernelFold.lean ====
/-
  The kernel program's two results as functions of its arguments.

  The generated frame folds the device's buffer contents through the program's six segments: `W1` after the first stretch
  of host operations, `W2` after the first launch, …, `W6` after the third launch. Walking that fold with what each
  stretch leaves (`Host0`, `Host1`, `Host2`) and what each launch's output array ends holding (`Region0`, `Region1`,
  `Region2`):
    after the first launch the hidden features are `Model.hidden` of the arguments;
    they, the edges' two rows and the untouched arguments survive every later segment;
    the second launch's output is `Model.head` of the hidden features with the second set of weights, and it survives
    the last two segments; the third launch's output is `Model.head` with the third set.
  The run of the program (`Run.run_results`) then ends with the two result arrays at these two terms.
-/
import proofs.«118410_j38929583571365_1_alg».proof.Proof.KernelRun
import proofs.«118410_j38929583571365_1_alg».proof.Proof.KernelRegion0
import proofs.«118410_j38929583571365_1_alg».proof.Proof.KernelRegion1
import proofs.«118410_j38929583571365_1_alg».proof.Proof.KernelRegion2
import proofs.«118410_j38929583571365_1_alg».proof.Proof.HostStretch0
import proofs.«118410_j38929583571365_1_alg».proof.Proof.HostStretch1
import proofs.«118410_j38929583571365_1_alg».proof.Proof.HostStretch2
import proofs.«118410_j38929583571365_1_alg».proof.Proof.Model

set_option maxRecDepth 16384

noncomputable section

namespace Cert.KernelIdeal.Fold

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- The hidden features of the launch memory's arguments on core `c`. -/
abbrev hid (c : Dev nD) : (⟨S50000x128, .f32⟩ : BufTy).Contents (Elt Ideal) :=
  Model.hidden (m ((c : Thread nD τ).loc main_arg0)) (m ((c : Thread nD τ).loc main_arg1)) (m ((c : Thread nD τ).loc main_arg2))
    (m ((c : Thread nD τ).loc main_arg3)) (m ((c : Thread nD τ).loc main_arg4))

/-- The first result of the launch memory's arguments on core `c`. -/
abbrev res0 (c : Dev nD) : (⟨S50000x64, .f32⟩ : BufTy).Contents (Elt Ideal) :=
  Model.head (hid m c) (m ((c : Thread nD τ).loc main_arg1)) (m ((c : Thread nD τ).loc main_arg5))
    (m ((c : Thread nD τ).loc main_arg6)) (m ((c : Thread nD τ).loc main_arg7))

/-- The second result of the launch memory's arguments on core `c`. -/
abbrev res1 (c : Dev nD) : (⟨S50000x64, .f32⟩ : BufTy).Contents (Elt Ideal) :=
  Model.head (hid m c) (m ((c : Thread nD τ).loc main_arg1)) (m ((c : Thread nD τ).loc main_arg8))
    (m ((c : Thread nD τ).loc main_arg9)) (m ((c : Thread nD τ).loc main_arg10))

/-! ## After the first launch -/

theorem w2_hidden (c : Dev nD) : W2 m ρ c (Proc.devRef .tc main_v24) = hid m c := by
  refine (W2_arr m ρ c 5).trans ?_
  rw [Region0.arr (V1 m ρ) c]
  have e1 : V1 m ρ c main_v22 = Agg.neighbourMean (Agg.sources (m ((c : Thread nD τ).loc main_arg1))) (Agg.dests (m ((c : Thread nD τ).loc main_arg1))) (m ((c : Thread nD τ).loc main_arg0)) :=
    Host0.means (W0 m ρ c)
  have e2 : V1 m ρ c main_arg0 = m ((c : Thread nD τ).loc main_arg0) := Host0.keeps_arg0 (W0 m ρ c)
  have e3 : V1 m ρ c main_arg2 = m ((c : Thread nD τ).loc main_arg2) := Host0.keeps_arg2 (W0 m ρ c)
  have e4 : V1 m ρ c main_arg3 = m ((c : Thread nD τ).loc main_arg3) := Host0.keeps_arg3 (W0 m ρ c)
  have e5 : V1 m ρ c main_v23 = Agg.row128 (m ((c : Thread nD τ).loc main_arg4)) := Host0.bias (W0 m ρ c)
  show Cert.Sage.layerRelu (R := 50000) (D := 128) (V1 m ρ c main_v22) (V1 m ρ c main_arg0) (V1 m ρ c main_arg2) (V1 m ρ c main_arg3) (V1 m ρ c main_v23) = _
  rw [e1, e2, e3, e4, e5]
  rfl

theorem w2_sources (c : Dev nD) : W2 m ρ c (Proc.devRef .tc main_v1) = Agg.sources (m ((c : Thread nD τ).loc main_arg1)) :=
  (W2_of_ne m ρ c main_v1 (by decide)).trans (Host0.sources (W0 m ρ c))
theorem w2_dests (c : Dev nD) : W2 m ρ c (Proc.devRef .tc main_v3) = Agg.dests (m ((c : Thread nD τ).loc main_arg1)) :=
  (W2_of_ne m ρ c main_v3 (by decide)).trans (Host0.dests (W0 m ρ c))
theorem w2_arg5 (c : Dev nD) : W2 m ρ c (Proc.devRef .tc main_arg5) = m ((c : Thread nD τ).loc main_arg5) :=
  (W2_of_ne m ρ c main_arg5 (by decide)).trans (Host0.keeps_arg5 (W0 m ρ c))
theorem w2_arg6 (c : Dev nD) : W2 m ρ c (Proc.devRef .tc main_arg6) = m ((c : Thread nD τ).loc main_arg6) :=
  (W2_of_ne m ρ c main_arg6 (by decide)).trans (Host0.keeps_arg6 (W0 m ρ c))
theorem w2_arg7 (c : Dev nD) : W2 m ρ c (Proc.devRef .tc main_arg7) = m ((c : Thread nD τ).loc main_arg7) :=
  (W2_of_ne m ρ c main_arg7 (by decide)).trans (Host0.keeps_arg7 (W0 m ρ c))
theorem w2_arg8 (c : Dev nD) : W2 m ρ c (Proc.devRef .tc main_arg8) = m ((c : Thread nD τ).loc main_arg8) :=
  (W2_of_ne m ρ c main_arg8 (by decide)).trans (Host0.keeps_arg8 (W0 m ρ c))
theorem w2_arg9 (c : Dev nD) : W2 m ρ c (Proc.devRef .tc main_arg9) = m ((c : Thread nD τ).loc main_arg9) :=
  (W2_of_ne m ρ c main_arg9 (by decide)).trans (Host0.keeps_arg9 (W0 m ρ c))
theorem w2_arg10 (c : Dev nD) : W2 m ρ c (Proc.devRef .tc main_arg10) = m ((c : Thread nD τ).loc main_arg10) :=
  (W2_of_ne m ρ c main_arg10 (by decide)).trans (Host0.keeps_arg10 (W0 m ρ c))

/-! ## Before the second launch -/

theorem w3_means (c : Dev nD) : W3 m ρ c (Proc.devRef .tc main_v43)
    = Agg.neighbourMean (Agg.sources (m ((c : Thread nD τ).loc main_arg1))) (Agg.dests (m ((c : Thread nD τ).loc main_arg1))) (hid m c) :=
  (Host1.means (W2 m ρ c)).trans (by rw [w2_sources m ρ c, w2_dests m ρ c, w2_hidden m ρ c])
theorem w3_bias (c : Dev nD) : W3 m ρ c (Proc.devRef .tc main_v44) = Agg.row64 (m ((c : Thread nD τ).loc main_arg7)) :=
  (Host1.bias (W2 m ρ c)).trans (by rw [w2_arg7 m ρ c])
theorem w3_hidden (c : Dev nD) : W3 m ρ c (Proc.devRef .tc main_v24) = hid m c :=
  (Host1.keeps_hidden (W2 m ρ c)).trans (w2_hidden m ρ c)
theorem w3_sources (c : Dev nD) : W3 m ρ c (Proc.devRef .tc main_v1) = Agg.sources (m ((c : Thread nD τ).loc main_arg1)) :=
  (Host1.keeps_sources (W2 m ρ c)).trans (w2_sources m ρ c)
theorem w3_dests (c : Dev nD) : W3 m ρ c (Proc.devRef .tc main_v3) = Agg.dests (m ((c : Thread nD τ).loc main_arg1)) :=
  (Host1.keeps_dests (W2 m ρ c)).trans (w2_dests m ρ c)
theorem w3_arg5 (c : Dev nD) : W3 m ρ c (Proc.devRef .tc main_arg5) = m ((c : Thread nD τ).loc main_arg5) :=
  (Host1.keeps_arg5 (W2 m ρ c)).trans (w2_arg5 m ρ c)
theorem w3_arg6 (c : Dev nD) : W3 m ρ c (Proc.devRef .tc main_arg6) = m ((c : Thread nD τ).loc main_arg6) :=
  (Host1.keeps_arg6 (W2 m ρ c)).trans (w2_arg6 m ρ c)
theorem w3_arg8 (c : Dev nD) : W3 m ρ c (Proc.devRef .tc main_arg8) = m ((c : Thread nD τ).loc main_arg8) :=
  (Host1.keeps_arg8 (W2 m ρ c)).trans (w2_arg8 m ρ c)
theorem w3_arg9 (c : Dev nD) : W3 m ρ c (Proc.devRef .tc main_arg9) = m ((c : Thread nD τ).loc main_arg9) :=
  (Host1.keeps_arg9 (W2 m ρ c)).trans (w2_arg9 m ρ c)
theorem w3_arg10 (c : Dev nD) : W3 m ρ c (Proc.devRef .tc main_arg10) = m ((c : Thread nD τ).loc main_arg10) :=
  (Host1.keeps_arg10 (W2 m ρ c)).trans (w2_arg10 m ρ c)

/-! ## After the second launch -/

theorem w4_res0 (c : Dev nD) : W4 m ρ c (Proc.devRef .tc main_v45) = res0 m c := by
  refine (W4_arr m ρ c 5).trans ?_
  rw [Region1.arr (V3 m ρ) c]
  have e1 : V3 m ρ c main_v43 = _ := w3_means m ρ c
  have e2 : V3 m ρ c main_v24 = _ := w3_hidden m ρ c
  have e3 : V3 m ρ c main_arg5 = _ := w3_arg5 m ρ c
  have e4 : V3 m ρ c main_arg6 = _ := w3_arg6 m ρ c
  have e5 : V3 m ρ c main_v44 = _ := w3_bias m ρ c
  show Cert.Sage.layer (R := 50000) (D := 64) (V3 m ρ c main_v43) (V3 m ρ c main_v24) (V3 m ρ c main_arg5) (V3 m ρ c main_arg6) (V3 m ρ c main_v44) = _
  rw [e1, e2, e3, e4, e5]
  rfl

theorem w4_hidden (c : Dev nD) : W4 m ρ c (Proc.devRef .tc main_v24) = hid m c :=
  (W4_arr m ρ c 1).trans (((dat1 (V3 m ρ) c).arrAt_in 1 rfl _).trans ((A_eq1 (V3 m ρ) c 1).trans (w3_hidden m ρ c)))
theorem w4_sources (c : Dev nD) : W4 m ρ c (Proc.devRef .tc main_v1) = Agg.sources (m ((c : Thread nD τ).loc main_arg1)) :=
  (W4_of_ne m ρ c main_v1 (by decide)).trans (w3_sources m ρ c)
theorem w4_dests (c : Dev nD) : W4 m ρ c (Proc.devRef .tc main_v3) = Agg.dests (m ((c : Thread nD τ).loc main_arg1)) :=
  (W4_of_ne m ρ c main_v3 (by decide)).trans (w3_dests m ρ c)
theorem w4_arg8 (c : Dev nD) : W4 m ρ c (Proc.devRef .tc main_arg8) = m ((c : Thread nD τ).loc main_arg8) :=
  (W4_of_ne m ρ c main_arg8 (by decide)).trans (w3_arg8 m ρ c)
theorem w4_arg9 (c : Dev nD) : W4 m ρ c (Proc.devRef .tc main_arg9) = m ((c : Thread nD τ).loc main_arg9) :=
  (W4_of_ne m ρ c main_arg9 (by decide)).trans (w3_arg9 m ρ c)
theorem w4_arg10 (c : Dev nD) : W4 m ρ c (Proc.devRef .tc main_arg10) = m ((c : Thread nD τ).loc main_arg10) :=
  (W4_of_ne m ρ c main_arg10 (by decide)).trans (w3_arg10 m ρ c)

/-! ## Before the third launch -/

theorem w5_means (c : Dev nD) : W5 m ρ c (Proc.devRef .tc main_v64)
    = Agg.neighbourMean (Agg.sources (m ((c : Thread nD τ).loc main_arg1))) (Agg.dests (m ((c : Thread nD τ).loc main_arg1))) (hid m c) :=
  (Host2.means (W4 m ρ c)).trans (by rw [w4_sources m ρ c, w4_dests m ρ c, w4_hidden m ρ c])
theorem w5_bias (c : Dev nD) : W5 m ρ c (Proc.devRef .tc main_v65) = Agg.row64 (m ((c : Thread nD τ).loc main_arg10)) :=
  (Host2.bias (W4 m ρ c)).trans (by rw [w4_arg10 m ρ c])
theorem w5_hidden (c : Dev nD) : W5 m ρ c (Proc.devRef .tc main_v24) = hid m c :=
  (Host2.keeps_hidden (W4 m ρ c)).trans (w4_hidden m ρ c)
theorem w5_arg8 (c : Dev nD) : W5 m ρ c (Proc.devRef .tc main_arg8) = m ((c : Thread nD τ).loc main_arg8) :=
  (Host2.keeps_arg8 (W4 m ρ c)).trans (w4_arg8 m ρ c)
theorem w5_arg9 (c : Dev nD) : W5 m ρ c (Proc.devRef .tc main_arg9) = m ((c : Thread nD τ).loc main_arg9) :=
  (Host2.keeps_arg9 (W4 m ρ c)).trans (w4_arg9 m ρ c)
theorem w5_res0 (c : Dev nD) : W5 m ρ c (Proc.devRef .tc main_v45) = res0 m c :=
  (Host2.keeps_first_result (W4 m ρ c)).trans (w4_res0 m ρ c)

/-! ## After the third launch -/

theorem w6_res1 (c : Dev nD) : W6 m ρ c (Proc.devRef .tc main_v66) = res1 m c := by
  refine (W6_arr m ρ c 5).trans ?_
  rw [Region2.arr (V5 m ρ) c]
  have e1 : V5 m ρ c main_v64 = _ := w5_means m ρ c
  have e2 : V5 m ρ c main_v24 = _ := w5_hidden m ρ c
  have e3 : V5 m ρ c main_arg8 = _ := w5_arg8 m ρ c
  have e4 : V5 m ρ c main_arg9 = _ := w5_arg9 m ρ c
  have e5 : V5 m ρ c main_v65 = _ := w5_bias m ρ c
  show Cert.Sage.layer (R := 50000) (D := 64) (V5 m ρ c main_v64) (V5 m ρ c main_v24) (V5 m ρ c main_arg8) (V5 m ρ c main_arg9) (V5 m ρ c main_v65) = _
  rw [e1, e2, e3, e4, e5]
  rfl

theorem w6_res0 (c : Dev nD) : W6 m ρ c (Proc.devRef .tc main_v45) = res0 m c :=
  (W6_of_ne m ρ c main_v45 (by decide)).trans (w5_res0 m ρ c)

/-! ## The run -/

/-- Every weakly fair execution of the kernel program terminates, nothing faulting, with the first result array at
    `res0`, the second at `res1`, and the eleven argument arrays as launched. -/
theorem run : θ_run defs (onTc (τ := τ) (main (F := Ideal))) ⟨m, fun _ => 0, ρ⟩ (fun r => ∀ c : Dev nD,
      r.2.mem ((c.tc : Thread nD τ).loc main_v45) = res0 m c
      ∧ r.2.mem ((c.tc : Thread nD τ).loc main_v66) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (w6_res0 m ρ c), (h c).2.1.trans (w6_res1 m ρ c), (h c).2.2⟩)
    (Run.run_results m ρ)

end Cert.KernelIdeal.Fold

end
-- ==== Proof.RefValue.lean ====
/-
  The reference program's two results are the same two functions of the arguments as the kernel program's.

  The reference computes each SAGE layer with the host's matrix product: (means · wl + bias) + x · wr, the bias a vector
  broadcast along the rows, then (first layer only) the rectifier as a maximum with a zero array. Read at an entry (r, q),
  each host product is the plain sum Σₖ l[r,k]·w[k,q] (the generated read-at-an-index lemmas), the broadcast bias is the
  vector's entry q, and the maximum with the zero array is `max · 0`. The kernel's grouping (means·wl + x·wr) + bias and the
  reference's (means·wl + bias) + x·wr are one extended real, addition there being commutative and associative
  (`Cert.Sage.entry_eq_mid`). The neighbourhood means are the same host operations in both programs, on equal operands:
  the reference's stage is the shared function `Agg.neighbourMean`, by unfolding the stage's definition only.
-/
import proofs.«118410_j38929583571365_1_alg».proof.Proof.Gen.ReferenceIdeal.Read
import proofs.«118410_j38929583571365_1_alg».proof.Proof.Model
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Cert.ReferenceIdeal Cert.ReferenceIdeal.Read Idealize.ShloMosaic Idealize.ShloMosaic.ValueIdx

/-! ## The shared sparse half -/

/-- The reference's neighbourhood means of the node features are the shared function of the edge list and the features. -/
theorem means_x (x0 : (⟨S50000x128, .f32⟩ : BufTy).Contents (Elt Ideal)) (x1 : (⟨S2x800000, .i32⟩ : BufTy).Contents (Elt Ideal)) :
    val_main_v22 (F := Ideal) x0 x1
      = Cert.KernelIdeal.Agg.neighbourMean (Cert.KernelIdeal.Agg.sources x1) (Cert.KernelIdeal.Agg.dests x1) x0 := rfl

/-- The reference's first neighbourhood means of the hidden features are the shared function of the edge list and the
    hidden features. -/
theorem means_h0 (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    val_main_v48 (F := Ideal) x0 x1 x2 x3 x4
      = Cert.KernelIdeal.Agg.neighbourMean (Cert.KernelIdeal.Agg.sources x1) (Cert.KernelIdeal.Agg.dests x1) (val_main_v29 (F := Ideal) x0 x1 x2 x3 x4) := rfl

/-- The reference's second neighbourhood means of the hidden features likewise. -/
theorem means_h1 (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    val_main_v73 (F := Ideal) x0 x1 x2 x3 x4
      = Cert.KernelIdeal.Agg.neighbourMean (Cert.KernelIdeal.Agg.sources x1) (Cert.KernelIdeal.Agg.dests x1) (val_main_v29 (F := Ideal) x0 x1 x2 x3 x4) := rfl

/-! ## The bias rows at an entry -/

/-- The first bias laid out as a row reads the vector's entry q. -/
theorem row128_apply (b : (⟨S128, .f32⟩ : BufTy).Contents (Elt Ideal)) (q : Fin 128) :
    Cert.KernelIdeal.Agg.row128 b (ix2 (0 : Fin 1) q) = b (ix1 q) := by
  unfold Cert.KernelIdeal.Agg.row128
  exact shapeCast_a_1a_apply b Cert.KernelIdeal.Facts₀.shapeCasts_S128_S1x128 0 q

/-- A 64-vector bias laid out as a row reads the vector's entry q. -/
theorem row64_apply (b : (⟨S64, .f32⟩ : BufTy).Contents (Elt Ideal)) (q : Fin 64) :
    Cert.KernelIdeal.Agg.row64 b (ix2 (0 : Fin 1) q) = b (ix1 q) := by
  unfold Cert.KernelIdeal.Agg.row64
  exact shapeCast_a_1a_apply b Cert.KernelIdeal.Facts₀.shapeCasts_S64_S1x64 0 q

/-! ## The hidden features -/

/-- The reference's hidden features are `Model.hidden` of the arguments. -/
theorem hidden_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    val_main_v29 (F := Ideal) x0 x1 x2 x3 x4 = Cert.KernelIdeal.Model.hidden x0 x1 x2 x3 x4 := by
  funext i
  obtain ⟨r, q, rfl⟩ : ∃ (r : Fin 50000) (q : Fin 128), i = ix2 r q := ⟨i 0, i 1, eq_ix2 i⟩
  have hl : ∀ k : Fin 128, lidx_main_v23 (ix2 r q) k = ix2 r k := fun k => funext fun a => Fin.ext (by
    match a with | ⟨0, _⟩ => rfl | ⟨1, _⟩ => rfl)
  have hr : ∀ k : Fin 128, ridx_main_v23 (ix2 r q) k = ix2 k q := fun k => funext fun a => Fin.ext (by
    match a with | ⟨0, _⟩ => rfl | ⟨1, _⟩ => rfl)
  have hl' : ∀ k : Fin 128, lidx_main_v27 (ix2 r q) k = ix2 r k := fun k => funext fun a => Fin.ext (by
    match a with | ⟨0, _⟩ => rfl | ⟨1, _⟩ => rfl)
  have hr' : ∀ k : Fin 128, ridx_main_v27 (ix2 r q) k = ix2 k q := fun k => funext fun a => Fin.ext (by
    match a with | ⟨0, _⟩ => rfl | ⟨1, _⟩ => rfl)
  have hb : idx_main_v24 (idx_main_v25 (ix2 r q)) = ix1 q := funext fun a => Fin.ext (by
    match a with | ⟨0, _⟩ => rfl)
  rw [val_main_v29_apply, val_main_v28_apply, val_main_v26_apply, val_main_v23_apply, val_main_v25_apply, val_main_v24_apply,
    val_main_v27_apply, val_main_call0_v0_apply, val_main_call0_cst_apply, means_x]
  simp only [hl, hr, hl', hr', hb]
  unfold Cert.KernelIdeal.Model.hidden Cert.Sage.layerRelu
  show max ((_ + _) + _) (Ideal.ofBits .f32 0x00000000#32) = max (Cert.Sage.entry _ _ _ _ _ r q) 0
  rw [Ideal.ofBits_zero_f32, Cert.Sage.entry_eq_mid, row128_apply]
  rfl

/-! ## The two results -/

/-- The reference's first result is `Model.head` of the hidden features with the second set of weights. -/
theorem res0_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x64, .f32⟩ : BufTy).Contents (Elt Ideal)) (x7 : (⟨S64, .f32⟩ : BufTy).Contents (Elt Ideal)) :
    val_main_v54 (F := Ideal) x0 x1 x2 x3 x4 x5 x6 x7
      = Cert.KernelIdeal.Model.head (Cert.KernelIdeal.Model.hidden x0 x1 x2 x3 x4) x1 x5 x6 x7 := by
  funext i
  obtain ⟨r, q, rfl⟩ : ∃ (r : Fin 50000) (q : Fin 64), i = ix2 r q := ⟨i 0, i 1, eq_ix2 i⟩
  have hl : ∀ k : Fin 128, lidx_main_v49 (ix2 r q) k = ix2 r k := fun k => funext fun a => Fin.ext (by
    match a with | ⟨0, _⟩ => rfl | ⟨1, _⟩ => rfl)
  have hr : ∀ k : Fin 128, ridx_main_v49 (ix2 r q) k = ix2 k q := fun k => funext fun a => Fin.ext (by
    match a with | ⟨0, _⟩ => rfl | ⟨1, _⟩ => rfl)
  have hl' : ∀ k : Fin 128, lidx_main_v53 (ix2 r q) k = ix2 r k := fun k => funext fun a => Fin.ext (by
    match a with | ⟨0, _⟩ => rfl | ⟨1, _⟩ => rfl)
  have hr' : ∀ k : Fin 128, ridx_main_v53 (ix2 r q) k = ix2 k q := fun k => funext fun a => Fin.ext (by
    match a with | ⟨0, _⟩ => rfl | ⟨1, _⟩ => rfl)
  have hb : idx_main_v50 (idx_main_v51 (ix2 r q)) = ix1 q := funext fun a => Fin.ext (by
    match a with | ⟨0, _⟩ => rfl)
  rw [val_main_v54_apply, val_main_v52_apply, val_main_v49_apply, val_main_v51_apply, val_main_v50_apply, val_main_v53_apply,
    means_h0, hidden_eq]
  simp only [hl, hr, hl', hr', hb]
  unfold Cert.KernelIdeal.Model.head Cert.Sage.layer
  show (_ + _) + _ = Cert.Sage.entry _ _ _ _ _ r q
  rw [Cert.Sage.entry_eq_mid, row64_apply]
  rfl

/-- The reference's second result is `Model.head` of the hidden features with the third set of weights. -/
theorem res1_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x8 x9 : (⟨S128x64, .f32⟩ : BufTy).Contents (Elt Ideal)) (x10 : (⟨S64, .f32⟩ : BufTy).Contents (Elt Ideal)) :
    val_main_v79 (F := Ideal) x0 x1 x2 x3 x4 x8 x9 x10
      = Cert.KernelIdeal.Model.head (Cert.KernelIdeal.Model.hidden x0 x1 x2 x3 x4) x1 x8 x9 x10 := by
  funext i
  obtain ⟨r, q, rfl⟩ : ∃ (r : Fin 50000) (q : Fin 64), i = ix2 r q := ⟨i 0, i 1, eq_ix2 i⟩
  have hl : ∀ k : Fin 128, lidx_main_v74 (ix2 r q) k = ix2 r k := fun k => funext fun a => Fin.ext (by
    match a with | ⟨0, _⟩ => rfl | ⟨1, _⟩ => rfl)
  have hr : ∀ k : Fin 128, ridx_main_v74 (ix2 r q) k = ix2 k q := fun k => funext fun a => Fin.ext (by
    match a with | ⟨0, _⟩ => rfl | ⟨1, _⟩ => rfl)
  have hl' : ∀ k : Fin 128, lidx_main_v78 (ix2 r q) k = ix2 r k := fun k => funext fun a => Fin.ext (by
    match a with | ⟨0, _⟩ => rfl | ⟨1, _⟩ => rfl)
  have hr' : ∀ k : Fin 128, ridx_main_v78 (ix2 r q) k = ix2 k q := fun k => funext fun a => Fin.ext (by
    match a with | ⟨0, _⟩ => rfl | ⟨1, _⟩ => rfl)
  have hb : idx_main_v75 (idx_main_v76 (ix2 r q)) = ix1 q := funext fun a => Fin.ext (by
    match a with | ⟨0, _⟩ => rfl)
  rw [val_main_v79_apply, val_main_v77_apply, val_main_v74_apply, val_main_v76_apply, val_main_v75_apply, val_main_v78_apply,
    means_h1, hidden_eq]
  simp only [hl, hr, hl', hr', hb]
  unfold Cert.KernelIdeal.Model.head Cert.Sage.layer
  show (_ + _) + _ = Cert.Sage.entry _ _ _ _ _ r q
  rw [Cert.Sage.entry_eq_mid, row64_apply]
  rfl

end Cert.ReferenceIdeal.RefValue

end
-- ==== Proof.lean ====
/-
  A two-layer graph encoder of stacked SAGE convolutions, computed two ways, gives the same two results on the
  extended reals.

  Each SAGE convolution is a sparse half — for every node the mean of its in-neighbours' features: gather the edges'
  source rows, sum them per destination, divide by the in-degree raised to at least 1 — and a dense half,
  mean · wl + x · wr + b. Both programs compute the sparse half with the same host operations. For the dense half the
  kernel program launches a tiled matrix kernel (25 blocks of 2000 rows; two matrix-unit products into zero accumulators,
  their sum, then the bias row, and in the first layer the rectifier), the reference uses the host's matrix product and adds
  the bias between the two products. At every entry both are (Σₖ mean[r,k]·wl[k,q]) + (Σₖ x[r,k]·wr[k,q]) + b[q] up to
  the grouping of the three summands, and addition of extended reals is commutative and associative, so the results agree
  whatever the inputs are: the precondition that the float inputs are finite is not used.

  The frames of the two kernel programs are the generated ones; the reference's frame is its generated run with the
  results dropped. The idealization rewrote no operation, so there is nothing to preserve. For the algebraic claim: the
  kernel program's run ends with its two result arrays at `Model.head` of `Model.hidden` of its arguments
  (`Cert.KernelIdeal.Fold.run`: the generated fold of the buffers through three host stretches and three launches, each
  launch's output array read as one whole-array function); the reference's generated run ends at its stages' composed
  terms, which are the same two functions (`Cert.ReferenceIdeal.RefValue.res0_eq`, `res1_eq`); and the two memories agree on
  the arguments.
-/
import proofs.«118410_j38929583571365_1_alg».proof.Defs
import proofs.«118410_j38929583571365_1_alg».proof.Proof.Gen.Kernel
import proofs.«118410_j38929583571365_1_alg».proof.Proof.Gen.Kernel.Skeleton
import proofs.«118410_j38929583571365_1_alg».proof.Proof.Gen.Kernel.Launch
import proofs.«118410_j38929583571365_1_alg».proof.Proof.Gen.Kernel.Points
import proofs.«118410_j38929583571365_1_alg».proof.Proof.Gen.Kernel.Frame
import proofs.«118410_j38929583571365_1_alg».proof.Proof.Gen.KernelIdeal
import proofs.«118410_j38929583571365_1_alg».proof.Proof.Gen.KernelIdeal.Skeleton
import proofs.«118410_j38929583571365_1_alg».proof.Proof.Gen.KernelIdeal.Launch
import proofs.«118410_j38929583571365_1_alg».proof.Proof.Gen.KernelIdeal.Points
import proofs.«118410_j38929583571365_1_alg».proof.Proof.Gen.KernelIdeal.Frame
import proofs.«118410_j38929583571365_1_alg».proof.Proof.Gen.ReferenceIdeal
import proofs.«118410_j38929583571365_1_alg».proof.Proof.Gen.ReferenceIdeal.Run
import proofs.«118410_j38929583571365_1_alg».proof.Proof.Gen.ReferenceIdeal.Read
import proofs.«118410_j38929583571365_1_alg».proof.Proof.Gen.Pre_finite_inputs
import proofs.«118410_j38929583571365_1_alg».proof.Proof.KernelFold
import proofs.«118410_j38929583571365_1_alg».proof.Proof.RefValue
import Idealize.ShloMosaic.Adequacy
import Idealize.ShloMosaic.Init

noncomputable section

namespace Cert.Proof

open Idealize.ShloMosaic Idealize.SL.Sem

/-- The kernel program as printed terminates without a fault and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with each result array at the same function of the
    arguments: the first at `Model.head` of the hidden features with the second set of weights, the second at `Model.head`
    with the third set. -/
theorem algebraic : Cert.algebraic_KernelIdeal_ReferenceIdeal := by
  intro m ρ m' ρ' _ hagree
  refine ⟨fun c => Cert.KernelIdeal.Fold.res0 m c, fun c => Cert.KernelIdeal.Fold.res1 m c, Cert.KernelIdeal.Fold.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, -, -, -⟩ := hagree c
    rw [Cert.ReferenceIdeal.Read.val_main_v54_eq, Cert.ReferenceIdeal.RefValue.res0_eq, h0, h1, h2, h3, h4, h5, h6, h7]
  · obtain ⟨h0, h1, h2, h3, h4, -, -, -, h8, h9, h10⟩ := hagree c
    rw [Cert.ReferenceIdeal.Read.val_main_v79_eq, Cert.ReferenceIdeal.RefValue.res1_eq, h0, h1, h2, h3, h4, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
